-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x512 : Shape := ⟨2, ![5000, 512]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 106
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x64, .f32⟩
  | .hbm, ⟨105, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_1 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x512_S512x128_S5000x128_1_0_0_1_n_n_wf : DotDims.WF S5000x512 S512x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x1, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x512, .f32⟩

abbrev hbmTy0_1 (i : Nat) : BufTy := match i % 128 with
  | 0 => ⟨S100000x64, .f32⟩
  | 1 => ⟨S100000x64, .f32⟩
  | 2 => ⟨S_, .f32⟩
  | 3 => ⟨S100000, .f32⟩
  | 4 => ⟨S100000x1, .f32⟩
  | 5 => ⟨S100000x1, .f32⟩
  | 6 => ⟨S100000x64, .f32⟩
  | 7 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S100000x512_S512x128_S100000x128_1_0_0_1_n_n_wf : DotDims.WF S100000x512 S512x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run with its RESULT named.

  @main is seven segments: host operations, the first product's region, host operations (two stretches), the second
  product's region, host operations (two stretches). The generated frame follows the buffer contents from boundary to
  boundary (`Gen.W0` … `Gen.W7`) and shows that every weakly fair execution terminates, without a fault, with every
  buffer that outlives a region at the last boundary's contents `Gen.W7`; it then keeps only the six arguments. Here the
  result buffer is kept as well: the run ends with the result at `Gen.W7` read at the result's reference, and the
  arguments as launched. What `Gen.W7` holds there is read, stretch by stretch, in another module.
-/
import proofs.«132066_j36146444763195_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the segments run one after the other, each from the contents the one
    before it leaves, and the final state is read at the result's reference as well as at the arguments'. -/
theorem run_result : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.Chain.lean ====
/-
  A two-layer graph convolution as one function of its six arguments, over any float values.

  The edge list `e` is two rows of 1600000 node numbers: row 0 the sources, row 1 the destinations. A node's degree is
  one (its self loop) plus the number of edges that end at it; `invSqrtDeg` is degree^(-1/2); an edge from s to d has the
  weight invSqrtDeg(s) * invSqrtDeg(d) (`edgeNorm`) and a node's self loop the weight invSqrtDeg(n)^2 (`selfWeight`).
  A convolution takes node features `h` that a weight matrix has already been applied to: it gathers each edge's source
  row, scales it by the edge's weight, adds it into the destination's row, adds the node's own row scaled by its self
  weight, and adds a bias row. A node number read as negative is wrapped by adding the number of nodes, as array indexing
  does (`wrapCol`). The network is a product with W1, a convolution, a clamp at zero, a product with W2, a convolution,
  and a row-wise log-softmax (each row minus its maximum, minus the logarithm of the row's sum of exponentials).

  `conv128` / `conv64` take the sources, destinations, edge weights and self weights as ARGUMENTS, so that a program
  that computes those once and a program that computes them once per layer are the same composition.
-/
import proofs.«132066_j36146444763195_1_alg».proof.Proof.Gen.ReferenceIdeal
import Idealize.ShloMosaic.Lib.StableHlo.Run

noncomputable section

namespace Cert.GraphConv

open Cert.ReferenceIdeal Cert.ReferenceIdeal.Gen Idealize.ShloMosaic Idealize.ShloMosaic.TcCoe Idealize.SL.Sem Idealize.ShloMosaic.StableHlo

variable {F : FTy → Type} [FloatOps F]

/-- An array of shape `S` and element type `t`. -/
abbrev Arr (F : FTy → Type) [FloatOps F] (S : Shape) (t : EltTy) : Type := (⟨S, t⟩ : BufTy).Contents (Elt F)

/-- Row 0 of the edge list: the source node of each edge. -/
def src (e : Arr F S2x1600000 .i32) : Arr F S1600000 .i32 :=
  shapeCast _ (extractStridedSlice S1x1600000 ![0, 0] e slices_S2x1600000_S1x1600000_0_0) shapeCasts_S1x1600000_S1600000

/-- Row 1 of the edge list: the destination node of each edge. -/
def dst (e : Arr F S2x1600000 .i32) : Arr F S1600000 .i32 :=
  shapeCast _ (extractStridedSlice S1x1600000 ![1, 0] e slices_S2x1600000_S1x1600000_1_0) shapeCasts_S1x1600000_S1600000

/-- Node numbers as a column of gather indices, a negative one wrapped by adding the number of nodes. -/
def wrapCol (i : Arr F S1600000 .i32) : Arr F S1600000x1 .i32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- degree^(-1/2) per node: one for the self loop plus one per edge ending at the node, then the reciprocal square root. -/
def invSqrtDeg (d : Arr F S1600000 .i32) : Arr F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32)))

/-- The weight of each edge: invSqrtDeg at its source times invSqrtDeg at its destination. -/
def edgeNorm (s d : Arr F S1600000 .i32) : Arr F S1600000 .f32 :=
  mulf (Host.gather gather_S100000_S1600000x1_S1600000_n_0_n_n_0_1_1 (invSqrtDeg d) (wrapCol s))
    (Host.gather gather_S100000_S1600000x1_S1600000_n_0_n_n_0_1_1 (invSqrtDeg d) (wrapCol d))

/-- The weight of each node's self loop: invSqrtDeg squared. -/
def selfWeight (d : Arr F S1600000 .i32) : Arr F S100000 .f32 := mulf (invSqrtDeg d) (invSqrtDeg d)

/-- The convolution on 128 features: weighted source rows summed into destinations, plus the weighted own row, plus the bias. -/
def conv128 (h : Arr F S100000x128 .f32) (s d : Arr F S1600000 .i32) (nm : Arr F S1600000 .f32) (sw : Arr F S100000 .f32)
    (b : Arr F S128 .f32) : Arr F S100000x128 .f32 :=
  addf (addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (mulf (Host.gather gather_S100000x128_S1600000x1_S1600000x128_1_0_n_n_0_1_1128 h (wrapCol s))
        (broadcastInDim S1600000x128 ![0, 1] bcast_S1600000x1_S1600000x128_0_1 (broadcastInDim S1600000x1 ![0] bcast_S1600000_S1600000x1_0 nm))))
    (mulf h (broadcastInDim S100000x128 ![0, 1] bcast_S100000x1_S100000x128_0_1 (broadcastInDim S100000x1 ![0] bcast_S100000_S100000x1_0 sw))))
    (broadcastInDim S100000x128 ![0, 1] bcast_S1x128_S100000x128_0_1 (broadcastInDim S1x128 ![1] bcast_S128_S1x128_1 b))

/-- The first layer after its product: the convolution clamped below at zero. -/
def layer1 (h : Arr F S100000x128 .f32) (s d : Arr F S1600000 .i32) (nm : Arr F S1600000 .f32) (sw : Arr F S100000 .f32)
    (b : Arr F S128 .f32) : Arr F S100000x128 .f32 :=
  maximumf (conv128 h s d nm sw b) (broadcastInDim S100000x128 ![] bcast_S_S100000x128 (constant S_ .f32 0x00000000#32))

/-- The convolution on 64 features. -/
def conv64 (h : Arr F S100000x64 .f32) (s d : Arr F S1600000 .i32) (nm : Arr F S1600000 .f32) (sw : Arr F S100000 .f32)
    (b : Arr F S64 .f32) : Arr F S100000x64 .f32 :=
  addf (addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (mulf (Host.gather gather_S100000x64_S1600000x1_S1600000x64_1_0_n_n_0_1_164 h (wrapCol s))
        (broadcastInDim S1600000x64 ![0, 1] bcast_S1600000x1_S1600000x64_0_1 (broadcastInDim S1600000x1 ![0] bcast_S1600000_S1600000x1_0 nm))))
    (mulf h (broadcastInDim S100000x64 ![0, 1] bcast_S100000x1_S100000x64_0_1 (broadcastInDim S100000x1 ![0] bcast_S100000_S100000x1_0 sw))))
    (broadcastInDim S100000x64 ![0, 1] bcast_S1x64_S100000x64_0_1 (broadcastInDim S1x64 ![1] bcast_S64_S1x64_1 b))

/-- Each row's maximum (from -inf), spread back over the row. -/
def rowMax (z : Arr F S100000x64 .f32) : Arr F S100000x64 .f32 :=
  broadcastInDim S100000x64 ![0, 1] bcast_S100000x1_S100000x64_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x64_S100000_d1 h_S_)))

/-- Row-wise log-softmax: the row shifted by its maximum, minus the logarithm of the sum of its exponentials. -/
def logSoftmax (z : Arr F S100000x64 .f32) : Arr F S100000x64 .f32 :=
  subf (subf z (rowMax z))
    (broadcastInDim S100000x64 ![0, 1] bcast_S100000x1_S100000x64_0_1 (Host.log (broadcastInDim S100000x1 ![0] bcast_S100000_S100000x1_0
      (Host.reduceAdd (Host.exp (subf z (rowMax z))) (constant S_ .f32 0x00000000#32) reducesTo_S100000x64_S100000_d1 h_S_))))

/-- The second layer after its product: the convolution, then the log-softmax. -/
def layer2 (h : Arr F S100000x64 .f32) (s d : Arr F S1600000 .i32) (nm : Arr F S1600000 .f32) (sw : Arr F S100000 .f32)
    (b : Arr F S64 .f32) : Arr F S100000x64 .f32 :=
  logSoftmax (conv64 h s d nm sw b)

/-- The whole network, with the two products `p1`, `p2` left as parameters. -/
def network (p1 : Arr F S100000x512 .f32 → Arr F S512x128 .f32 → Arr F S100000x128 .f32)
    (p2 : Arr F S100000x128 .f32 → Arr F S128x64 .f32 → Arr F S100000x64 .f32)
    (x : Arr F S100000x512 .f32) (e : Arr F S2x1600000 .i32) (w1 : Arr F S512x128 .f32) (b1 : Arr F S128 .f32)
    (w2 : Arr F S128x64 .f32) (b2 : Arr F S64 .f32) : Arr F S100000x64 .f32 :=
  layer2 (p2 (layer1 (p1 x w1) (src e) (dst e) (edgeNorm (src e) (dst e)) (selfWeight (dst e)) b1) w2)
    (src e) (dst e) (edgeNorm (src e) (dst e)) (selfWeight (dst e)) b2

/-- The network with the host's two matrix products. -/
def gcn (x : Arr F S100000x512 .f32) (e : Arr F S2x1600000 .i32) (w1 : Arr F S512x128 .f32) (b1 : Arr F S128 .f32)
    (w2 : Arr F S128x64 .f32) (b2 : Arr F S64 .f32) : Arr F S100000x64 .f32 :=
  network (fun l r => Host.dotGeneral dot_S100000x512_S512x128_S100000x128_1_0_0_1_n_n none l r)
    (fun l r => Host.dotGeneral dot_S100000x128_S128x64_S100000x64_1_0_0_1_n_n none l r) x e w1 b1 w2 b2

end Cert.GraphConv

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.KernelHost.lean ====
/-
  The host operations of the idealized kernel program, stretch by stretch: what each stretch leaves in the buffers the
  later ones read, in terms of the contents it starts from.

    * the first stretch computes, from the edge list alone, the sources, the destinations, the edge weights and the
      self-loop weights (`Cert.GraphConv.src`, `dst`, `edgeNorm`, `selfWeight`), and leaves the arguments in place;
    * after the first region: the first layer's convolution of the region's result (`conv128`), then the clamp at zero,
      which is a called function's three operations;
    * after the second region: the second layer's convolution (`conv64`), then the log-softmax, a called function's
      fifteen operations.
  A called function's operations carry their values across type equations; those are removed by the lemmas on typed
  references before anything is compared, and each called function is read over ANY contents it may start from.
-/
import proofs.«132066_j36146444763195_1_alg».proof.Proof.Gen.KernelIdeal.Frame
import proofs.«132066_j36146444763195_1_alg».proof.Proof.Chain
import proofs.«132066_j36146444763195_1_alg».proof.Proof.LibTypedRef

set_option maxRecDepth 16384
set_option Elab.async false

noncomputable section

open Idealize.ShloMosaic Idealize.ShloMosaic.TcCoe Idealize.SL.Sem

namespace Cert.KernelIdeal.Host

open Cert.KernelIdeal Cert.KernelIdeal.Gen Cert.TypedRef

variable {F : FTy → Type} [FloatOps F]

/-! ## The two called functions, over any contents -/

/-- The clamp: the maximum with zero. -/
theorem clamp_call (V : Valuation τ sig (Elt F)) :
    StableHlo.after hostOps1_1 V (Proc.devRef .tc main_v48)
      = maximumf (V (Proc.devRef .tc main_v47)) (broadcastInDim S100000x128 ![] bcast_S_S100000x128 (constant S_ .f32 0x00000000#32)) := by
  dsimp only [hostOps1_1]
  after_results_simp
  simp only [ofBuf_toBuf]
  rw [ofBuf_of main_v47, toBuf_of main_v48]

/-- The clamp's operations write none of the buffers the second layer still reads. -/
theorem clamp_keeps_v1 (V : Valuation τ sig (Elt F)) : StableHlo.after hostOps1_1 V (Proc.devRef .tc main_v1) = V (Proc.devRef .tc main_v1) := by
  dsimp only [hostOps1_1]
  after_results_simp
theorem clamp_keeps_v3 (V : Valuation τ sig (Elt F)) : StableHlo.after hostOps1_1 V (Proc.devRef .tc main_v3) = V (Proc.devRef .tc main_v3) := by
  dsimp only [hostOps1_1]
  after_results_simp
theorem clamp_keeps_v25 (V : Valuation τ sig (Elt F)) : StableHlo.after hostOps1_1 V (Proc.devRef .tc main_v25) = V (Proc.devRef .tc main_v25) := by
  dsimp only [hostOps1_1]
  after_results_simp
theorem clamp_keeps_v26 (V : Valuation τ sig (Elt F)) : StableHlo.after hostOps1_1 V (Proc.devRef .tc main_v26) = V (Proc.devRef .tc main_v26) := by
  dsimp only [hostOps1_1]
  after_results_simp
theorem clamp_keeps_arg4 (V : Valuation τ sig (Elt F)) : StableHlo.after hostOps1_1 V (Proc.devRef .tc main_arg4) = V (Proc.devRef .tc main_arg4) := by
  dsimp only [hostOps1_1]
  after_results_simp
theorem clamp_keeps_arg5 (V : Valuation τ sig (Elt F)) : StableHlo.after hostOps1_1 V (Proc.devRef .tc main_arg5) = V (Proc.devRef .tc main_arg5) := by
  dsimp only [hostOps1_1]
  after_results_simp

/-- The log-softmax of the buffer it is called on. -/
theorem logSoftmax_call (V : Valuation τ sig (Elt F)) :
    StableHlo.after hostOps2_1 V (Proc.devRef .tc main_v70) = Cert.GraphConv.logSoftmax (V (Proc.devRef .tc main_v69)) := by
  dsimp only [hostOps2_1]
  after_results_simp
  simp only [ofBuf_toBuf]
  rw [ofBuf_of main_v69, toBuf_of main_v70]
  rfl

variable (m : (ℓ : Loc nD τ sig) → Buf (Elt F) ℓ) (ρ : Dev nD → PrngReg) (c : Dev nD)

/-! ## The first stretch: what is computed from the edge list, and the arguments still in place -/

theorem entry_src : W1 m ρ c (Proc.devRef .tc main_v1) = Cert.GraphConv.src (m ((c : Thread nD τ).loc main_arg1)) := by
  show StableHlo.after hostOps0 (W0 m ρ c) (Proc.devRef .tc main_v1) = _
  dsimp only [hostOps0]
  after_results_simp
  rfl

theorem entry_dst : W1 m ρ c (Proc.devRef .tc main_v3) = Cert.GraphConv.dst (m ((c : Thread nD τ).loc main_arg1)) := by
  show StableHlo.after hostOps0 (W0 m ρ c) (Proc.devRef .tc main_v3) = _
  dsimp only [hostOps0]
  after_results_simp
  rfl

theorem entry_norm : W1 m ρ c (Proc.devRef .tc main_v25) = Cert.GraphConv.edgeNorm (Cert.GraphConv.src (m ((c : Thread nD τ).loc main_arg1))) (Cert.GraphConv.dst (m ((c : Thread nD τ).loc main_arg1))) := by
  show StableHlo.after hostOps0 (W0 m ρ c) (Proc.devRef .tc main_v25) = _
  dsimp only [hostOps0]
  after_results_simp
  rfl

theorem entry_self : W1 m ρ c (Proc.devRef .tc main_v26) = Cert.GraphConv.selfWeight (Cert.GraphConv.dst (m ((c : Thread nD τ).loc main_arg1))) := by
  show StableHlo.after hostOps0 (W0 m ρ c) (Proc.devRef .tc main_v26) = _
  dsimp only [hostOps0]
  after_results_simp
  rfl

theorem entry_arg0 : W1 m ρ c (Proc.devRef .tc main_arg0) = (m ((c : Thread nD τ).loc main_arg0)) := by
  show StableHlo.after hostOps0 (W0 m ρ c) (Proc.devRef .tc main_arg0) = _
  dsimp only [hostOps0]
  after_results_simp

theorem entry_arg2 : W1 m ρ c (Proc.devRef .tc main_arg2) = (m ((c : Thread nD τ).loc main_arg2)) := by
  show StableHlo.after hostOps0 (W0 m ρ c) (Proc.devRef .tc main_arg2) = _
  dsimp only [hostOps0]
  after_results_simp

theorem entry_arg3 : W1 m ρ c (Proc.devRef .tc main_arg3) = (m ((c : Thread nD τ).loc main_arg3)) := by
  show StableHlo.after hostOps0 (W0 m ρ c) (Proc.devRef .tc main_arg3) = _
  dsimp only [hostOps0]
  after_results_simp

theorem entry_arg4 : W1 m ρ c (Proc.devRef .tc main_arg4) = (m ((c : Thread nD τ).loc main_arg4)) := by
  show StableHlo.after hostOps0 (W0 m ρ c) (Proc.devRef .tc main_arg4) = _
  dsimp only [hostOps0]
  after_results_simp

theorem entry_arg5 : W1 m ρ c (Proc.devRef .tc main_arg5) = (m ((c : Thread nD τ).loc main_arg5)) := by
  show StableHlo.after hostOps0 (W0 m ρ c) (Proc.devRef .tc main_arg5) = _
  dsimp only [hostOps0]
  after_results_simp

/-! ## The first layer's host operations, from the contents the first region leaves -/

theorem conv_first : W3 m ρ c (Proc.devRef .tc main_v47) = Cert.GraphConv.conv128 (W2 m ρ c (Proc.devRef .tc main_v27)) (W2 m ρ c (Proc.devRef .tc main_v1)) (W2 m ρ c (Proc.devRef .tc main_v3))
    (W2 m ρ c (Proc.devRef .tc main_v25)) (W2 m ρ c (Proc.devRef .tc main_v26)) (W2 m ρ c (Proc.devRef .tc main_arg3)) := by
  show StableHlo.after hostOps1 (W2 m ρ c) (Proc.devRef .tc main_v47) = _
  dsimp only [hostOps1]
  after_results_simp
  rfl

theorem first_keeps_v1 : W3 m ρ c (Proc.devRef .tc main_v1) = W2 m ρ c (Proc.devRef .tc main_v1) := by
  show StableHlo.after hostOps1 (W2 m ρ c) (Proc.devRef .tc main_v1) = _
  dsimp only [hostOps1]
  after_results_simp

theorem first_keeps_v3 : W3 m ρ c (Proc.devRef .tc main_v3) = W2 m ρ c (Proc.devRef .tc main_v3) := by
  show StableHlo.after hostOps1 (W2 m ρ c) (Proc.devRef .tc main_v3) = _
  dsimp only [hostOps1]
  after_results_simp

theorem first_keeps_v25 : W3 m ρ c (Proc.devRef .tc main_v25) = W2 m ρ c (Proc.devRef .tc main_v25) := by
  show StableHlo.after hostOps1 (W2 m ρ c) (Proc.devRef .tc main_v25) = _
  dsimp only [hostOps1]
  after_results_simp

theorem first_keeps_v26 : W3 m ρ c (Proc.devRef .tc main_v26) = W2 m ρ c (Proc.devRef .tc main_v26) := by
  show StableHlo.after hostOps1 (W2 m ρ c) (Proc.devRef .tc main_v26) = _
  dsimp only [hostOps1]
  after_results_simp

theorem first_keeps_arg4 : W3 m ρ c (Proc.devRef .tc main_arg4) = W2 m ρ c (Proc.devRef .tc main_arg4) := by
  show StableHlo.after hostOps1 (W2 m ρ c) (Proc.devRef .tc main_arg4) = _
  dsimp only [hostOps1]
  after_results_simp

theorem first_keeps_arg5 : W3 m ρ c (Proc.devRef .tc main_arg5) = W2 m ρ c (Proc.devRef .tc main_arg5) := by
  show StableHlo.after hostOps1 (W2 m ρ c) (Proc.devRef .tc main_arg5) = _
  dsimp only [hostOps1]
  after_results_simp

theorem hidden : W4 m ρ c (Proc.devRef .tc main_v48) = Cert.GraphConv.layer1 (W2 m ρ c (Proc.devRef .tc main_v27)) (W2 m ρ c (Proc.devRef .tc main_v1)) (W2 m ρ c (Proc.devRef .tc main_v3))
    (W2 m ρ c (Proc.devRef .tc main_v25)) (W2 m ρ c (Proc.devRef .tc main_v26)) (W2 m ρ c (Proc.devRef .tc main_arg3)) := by
  show StableHlo.after hostOps1_1 (W3 m ρ c) (Proc.devRef .tc main_v48) = _
  rw [clamp_call, conv_first]
  rfl

theorem kept4_v1 : W4 m ρ c (Proc.devRef .tc main_v1) = W2 m ρ c (Proc.devRef .tc main_v1) := by
  show StableHlo.after hostOps1_1 (W3 m ρ c) (Proc.devRef .tc main_v1) = _
  rw [clamp_keeps_v1, first_keeps_v1]
theorem kept4_v3 : W4 m ρ c (Proc.devRef .tc main_v3) = W2 m ρ c (Proc.devRef .tc main_v3) := by
  show StableHlo.after hostOps1_1 (W3 m ρ c) (Proc.devRef .tc main_v3) = _
  rw [clamp_keeps_v3, first_keeps_v3]
theorem kept4_v25 : W4 m ρ c (Proc.devRef .tc main_v25) = W2 m ρ c (Proc.devRef .tc main_v25) := by
  show StableHlo.after hostOps1_1 (W3 m ρ c) (Proc.devRef .tc main_v25) = _
  rw [clamp_keeps_v25, first_keeps_v25]
theorem kept4_v26 : W4 m ρ c (Proc.devRef .tc main_v26) = W2 m ρ c (Proc.devRef .tc main_v26) := by
  show StableHlo.after hostOps1_1 (W3 m ρ c) (Proc.devRef .tc main_v26) = _
  rw [clamp_keeps_v26, first_keeps_v26]
theorem kept4_arg4 : W4 m ρ c (Proc.devRef .tc main_arg4) = W2 m ρ c (Proc.devRef .tc main_arg4) := by
  show StableHlo.after hostOps1_1 (W3 m ρ c) (Proc.devRef .tc main_arg4) = _
  rw [clamp_keeps_arg4, first_keeps_arg4]
theorem kept4_arg5 : W4 m ρ c (Proc.devRef .tc main_arg5) = W2 m ρ c (Proc.devRef .tc main_arg5) := by
  show StableHlo.after hostOps1_1 (W3 m ρ c) (Proc.devRef .tc main_arg5) = _
  rw [clamp_keeps_arg5, first_keeps_arg5]

/-! ## The second layer's host operations, from the contents the second region leaves -/

theorem conv_second : W6 m ρ c (Proc.devRef .tc main_v69) = Cert.GraphConv.conv64 (W5 m ρ c (Proc.devRef .tc main_v49)) (W5 m ρ c (Proc.devRef .tc main_v1)) (W5 m ρ c (Proc.devRef .tc main_v3))
    (W5 m ρ c (Proc.devRef .tc main_v25)) (W5 m ρ c (Proc.devRef .tc main_v26)) (W5 m ρ c (Proc.devRef .tc main_arg5)) := by
  show StableHlo.after hostOps2 (W5 m ρ c) (Proc.devRef .tc main_v69) = _
  dsimp only [hostOps2]
  after_results_simp
  rfl

theorem output : W7 m ρ c (Proc.devRef .tc main_v70) = Cert.GraphConv.layer2 (W5 m ρ c (Proc.devRef .tc main_v49)) (W5 m ρ c (Proc.devRef .tc main_v1)) (W5 m ρ c (Proc.devRef .tc main_v3))
    (W5 m ρ c (Proc.devRef .tc main_v25)) (W5 m ρ c (Proc.devRef .tc main_v26)) (W5 m ρ c (Proc.devRef .tc main_arg5)) := by
  show StableHlo.after hostOps2_1 (W6 m ρ c) (Proc.devRef .tc main_v70) = _
  rw [logSoftmax_call, conv_second]
  rfl

end Cert.KernelIdeal.Host

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Product0.lean ====
/-
  The first product's region: its result array ends holding the product of the node features [100000, 512] with the weight matrix [512, 128].

  The region runs over 20 points. At point t the body loads rows 5000 t … 5000 t + 4999 of the left operand (all 512
  columns) and the whole right operand [512, 128], and stores their matrix product into a zero accumulator: over the
  extended reals a change of float format is the identity, so that is the plain product of the two loaded blocks.
  Entry (p, q) of the block's product is the sum over k of left(5000 t + p, k) * right(k, q), which is entry
  (5000 t + p, q) of the product of the whole arrays: a block of rows of a product is that block of rows of the left
  operand times the right operand. The 20 blocks tile the 100000 rows (row r lies in block r / 5000), so the result array
  ends holding the whole product.
-/
import proofs.«132066_j36146444763195_1_alg».proof.Proof.Gen.KernelIdeal.Frame
import proofs.«132066_j36146444763195_1_alg».proof.Proof.LibMatProd
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product0

open Cert.KernelIdeal Cert.KernelIdeal.Gen Cert.MatProd

variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole arrays, entry by entry. -/
abbrev whole (A : S100000x512.Idx → EReal) (B : S512x128.Idx → EReal) : S100000x128.Idx → EReal :=
  prod (M := 100000) (K := 512) (N := 128) A B

/-- The body's payload is the plain product of its two loaded blocks. -/
theorem payload (x0 : Vec Ideal S5000x512 .f32) (x1 : Vec Ideal S512x128 .f32) :
    k0_pay1 x0 x1 = prod (M := 5000) (K := 512) (N := 128) x0 x1 := by
  unfold k0_pay1
  simp only [truncf, Ideal.truncf_def]
  exact matmul_plain_zero_eq none x0 x1

/-- Entry `j` of a product of blocks is entry `i` of the product of the whole arrays, when row `j 0` of the left block is
    row `i 0` of the left array and column `j 1` of the right block is column `i 1` of the right array. -/
theorem prod_at (A : S100000x512.Idx → EReal) (B : S512x128.Idx → EReal) (A' : S5000x512.Idx → EReal) (B' : S512x128.Idx → EReal)
    (j : S5000x128.Idx) (i : S100000x128.Idx)
    (hA : ∀ k : Fin 512, A' (ix2 (j 0) k) = A (ix2 (i 0) k)) (hB : ∀ k : Fin 512, B' (ix2 k (j 1)) = B (ix2 k (i 1))) :
    prod (M := 5000) (K := 512) (N := 128) A' B' j = whole A B i := by
  have h := prod_block_eq (M := 100000) (K := 512) (N := 128) A B A' B' (j 0) (j 1) i hA hB
  exact (congrArg (prod A' B') (eq_ix2 j)).trans h

/-- The printed index maps, decided over the grid: the left operand's and the result's blocks move down the rows with the
    point, and the right operand's block stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the left operand's block at point `t` is the array's entry at the block's offset plus the coordinate. -/
theorem left_block (c : Dev nD) (t : Fin cfg0.N) (x : S5000x512.Idx) (y : S100000x512.Idx)
    (h0 : (y 0).val = win0_0.index t (0 : Fin 2) * 5000 + (x 0).val) (h1 : (y 1).val = win0_0.index t (1 : Fin 2) * 512 + (x 1).val) :
    (iblk0 V c 0 t : S5000x512.Idx → EReal) x = (V c main_arg0 : S100000x512.Idx → EReal) y := by
  unfold iblk0
  rw [View.read_apply]
  show V c main_arg0 _ = V c main_arg0 _
  congr 1
  funext a
  apply Fin.ext
  match a with
  | ⟨0, _⟩ => show win0_0.index t (0 : Fin 2) * 5000 + 1 * (x 0).val = (y 0).val; omega
  | ⟨1, _⟩ => show win0_0.index t (1 : Fin 2) * 512 + 1 * (x 1).val = (y 1).val; omega

/-- The same for the right operand's block. -/
theorem right_block (c : Dev nD) (t : Fin cfg0.N) (x : S512x128.Idx) (y : S512x128.Idx)
    (h0 : (y 0).val = win0_1.index t (0 : Fin 2) * 512 + (x 0).val) (h1 : (y 1).val = win0_1.index t (1 : Fin 2) * 128 + (x 1).val) :
    (iblk0 V c 1 t : S512x128.Idx → EReal) x = (V c main_arg2 : S512x128.Idx → EReal) y := by
  unfold iblk0
  rw [View.read_apply]
  show V c main_arg2 _ = V c main_arg2 _
  congr 1
  funext a
  apply Fin.ext
  match a with
  | ⟨0, _⟩ => show win0_1.index t (0 : Fin 2) * 512 + 1 * (x 0).val = (y 0).val; omega
  | ⟨1, _⟩ => show win0_1.index t (1 : Fin 2) * 128 + 1 * (x 1).val = (y 1).val; omega

/-- What point `t` writes back is block `t` of the product of the whole arrays as the region finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x128) zero_offsets]
  rw [payload]
  obtain ⟨e0, e1, e2, e3, e4, e5⟩ := index_maps t
  funext j
  show prod (M := 5000) (K := 512) (N := 128) (iblk0 V c 0 t) (iblk0 V c 1 t) j
    = whole (V c main_arg0) (V c main_arg2) (((cfg0.win 2).blk t).view.emb j)
  refine prod_at (V c main_arg0) (V c main_arg2) (iblk0 V c 0 t) (iblk0 V c 1 t) j _ (fun k => ?_) (fun k => ?_)
  · refine left_block V c t _ _ ?_ ?_
    · show win0_2.index t (0 : Fin 2) * 5000 + 1 * (j 0).val = win0_0.index t (0 : Fin 2) * 5000 + (j 0).val
      omega
    · show k.val = win0_0.index t (1 : Fin 2) * 512 + k.val
      omega
  · refine right_block V c t _ _ ?_ ?_
    · show k.val = win0_1.index t (0 : Fin 2) * 512 + k.val
      omega
    · show win0_2.index t (1 : Fin 2) * 128 + 1 * (j 1).val = win0_1.index t (1 : Fin 2) * 128 + (j 1).val
      omega

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the result array is in the block of the point its row falls in. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := index_maps t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region is the product of the two operand arrays as the region finds them. -/
theorem product_array (c : Dev nD) : (dat0 V c).arrAt 2 cfg0.N = whole (V c main_arg0) (V c main_arg2) :=
  (dat0 V c).arrAt_eq_of_cover 2 (whole (V c main_arg0) (V c main_arg2)) (fun t _ => flushed_eq V c t) covered

end Cert.KernelIdeal.Product0

end
-- ==== Proof.Product1.lean ====
/-
  The second product's region: its result array ends holding the product of the hidden features [100000, 128] with the weight matrix [128, 64].

  The region runs over 20 points. At point t the body loads rows 5000 t … 5000 t + 4999 of the left operand (all 128
  columns) and the whole right operand [128, 64], and stores their matrix product into a zero accumulator: over the
  extended reals a change of float format is the identity, so that is the plain product of the two loaded blocks.
  Entry (p, q) of the block's product is the sum over k of left(5000 t + p, k) * right(k, q), which is entry
  (5000 t + p, q) of the product of the whole arrays: a block of rows of a product is that block of rows of the left
  operand times the right operand. The 20 blocks tile the 100000 rows (row r lies in block r / 5000), so the result array
  ends holding the whole product.
-/
import proofs.«132066_j36146444763195_1_alg».proof.Proof.Gen.KernelIdeal.Frame
import proofs.«132066_j36146444763195_1_alg».proof.Proof.LibMatProd
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product1

open Cert.KernelIdeal Cert.KernelIdeal.Gen Cert.MatProd

variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole arrays, entry by entry. -/
abbrev whole (A : S100000x128.Idx → EReal) (B : S128x64.Idx → EReal) : S100000x64.Idx → EReal :=
  prod (M := 100000) (K := 128) (N := 64) A B

/-- The body's payload is the plain product of its two loaded blocks. -/
theorem payload (x0 : Vec Ideal S5000x128 .f32) (x1 : Vec Ideal S128x64 .f32) :
    k1_pay1 x0 x1 = prod (M := 5000) (K := 128) (N := 64) x0 x1 := by
  unfold k1_pay1
  simp only [truncf, Ideal.truncf_def, shapeCast_self]
  exact matmul_plain_zero_eq none x0 x1

/-- Entry `j` of a product of blocks is entry `i` of the product of the whole arrays, when row `j 0` of the left block is
    row `i 0` of the left array and column `j 1` of the right block is column `i 1` of the right array. -/
theorem prod_at (A : S100000x128.Idx → EReal) (B : S128x64.Idx → EReal) (A' : S5000x128.Idx → EReal) (B' : S128x64.Idx → EReal)
    (j : S5000x64.Idx) (i : S100000x64.Idx)
    (hA : ∀ k : Fin 128, A' (ix2 (j 0) k) = A (ix2 (i 0) k)) (hB : ∀ k : Fin 128, B' (ix2 k (j 1)) = B (ix2 k (i 1))) :
    prod (M := 5000) (K := 128) (N := 64) A' B' j = whole A B i := by
  have h := prod_block_eq (M := 100000) (K := 128) (N := 64) A B A' B' (j 0) (j 1) i hA hB
  exact (congrArg (prod A' B') (eq_ix2 j)).trans h

/-- The printed index maps, decided over the grid: the left operand's and the result's blocks move down the rows with the
    point, and the right operand's block stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the left operand's block at point `t` is the array's entry at the block's offset plus the coordinate. -/
theorem left_block (c : Dev nD) (t : Fin cfg1.N) (x : S5000x128.Idx) (y : S100000x128.Idx)
    (h0 : (y 0).val = win1_0.index t (0 : Fin 2) * 5000 + (x 0).val) (h1 : (y 1).val = win1_0.index t (1 : Fin 2) * 128 + (x 1).val) :
    (iblk1 V c 0 t : S5000x128.Idx → EReal) x = (V c main_v48 : S100000x128.Idx → EReal) y := by
  unfold iblk1
  rw [View.read_apply]
  show V c main_v48 _ = V c main_v48 _
  congr 1
  funext a
  apply Fin.ext
  match a with
  | ⟨0, _⟩ => show win1_0.index t (0 : Fin 2) * 5000 + 1 * (x 0).val = (y 0).val; omega
  | ⟨1, _⟩ => show win1_0.index t (1 : Fin 2) * 128 + 1 * (x 1).val = (y 1).val; omega

/-- The same for the right operand's block. -/
theorem right_block (c : Dev nD) (t : Fin cfg1.N) (x : S128x64.Idx) (y : S128x64.Idx)
    (h0 : (y 0).val = win1_1.index t (0 : Fin 2) * 128 + (x 0).val) (h1 : (y 1).val = win1_1.index t (1 : Fin 2) * 64 + (x 1).val) :
    (iblk1 V c 1 t : S128x64.Idx → EReal) x = (V c main_arg4 : S128x64.Idx → EReal) y := by
  unfold iblk1
  rw [View.read_apply]
  show V c main_arg4 _ = V c main_arg4 _
  congr 1
  funext a
  apply Fin.ext
  match a with
  | ⟨0, _⟩ => show win1_1.index t (0 : Fin 2) * 128 + 1 * (x 0).val = (y 0).val; omega
  | ⟨1, _⟩ => show win1_1.index t (1 : Fin 2) * 64 + 1 * (x 1).val = (y 1).val; omega

/-- What point `t` writes back is block `t` of the product of the whole arrays as the region finds them. -/
theorem flushed_eq (c : Dev nD) (t : Fin cfg1.N) :
    (dat1 V c).flushed 2 t = ((cfg1.win 2).blk t).view.read (Elt Ideal) (whole (V c main_v48) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x64) zero_offsets]
  rw [payload]
  obtain ⟨e0, e1, e2, e3, e4, e5⟩ := index_maps t
  funext j
  show prod (M := 5000) (K := 128) (N := 64) (iblk1 V c 0 t) (iblk1 V c 1 t) j
    = whole (V c main_v48) (V c main_arg4) (((cfg1.win 2).blk t).view.emb j)
  refine prod_at (V c main_v48) (V c main_arg4) (iblk1 V c 0 t) (iblk1 V c 1 t) j _ (fun k => ?_) (fun k => ?_)
  · refine left_block V c t _ _ ?_ ?_
    · show win1_2.index t (0 : Fin 2) * 5000 + 1 * (j 0).val = win1_0.index t (0 : Fin 2) * 5000 + (j 0).val
      omega
    · show k.val = win1_0.index t (1 : Fin 2) * 128 + k.val
      omega
  · refine right_block V c t _ _ ?_ ?_
    · show k.val = win1_1.index t (0 : Fin 2) * 128 + k.val
      omega
    · show win1_2.index t (1 : Fin 2) * 64 + 1 * (j 1).val = win1_1.index t (1 : Fin 2) * 64 + (j 1).val
      omega

/-- An index of the result array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Every index of the result array is in the block of the point its row falls in. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := index_maps t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The result array after the region is the product of the two operand arrays as the region finds them. -/
theorem product_array (c : Dev nD) : (dat1 V c).arrAt 2 cfg1.N = whole (V c main_v48) (V c main_arg4) :=
  (dat1 V c).arrAt_eq_of_cover 2 (whole (V c main_v48) (V c main_arg4)) (fun t _ => flushed_eq V c t) covered

end Cert.KernelIdeal.Product1

end
-- ==== Proof.KernelValue.lean ====
/-
  What the idealized kernel program's result buffer holds at the end, as a function of the arguments.

  The buffer contents are followed from boundary to boundary of @main's seven segments (`Gen.W0` … `Gen.W7`): the first
  stretch of host operations computes the sources, destinations, edge weights and self-loop weights from the edge list,
  once; the first region leaves the product of the node features with W1 in its result array and every other buffer as
  it was; the next stretches apply the first layer (convolution, clamp at zero); the second region leaves the product of
  the hidden features with W2; the last stretches apply the second layer (convolution, log-softmax). Composed, the result
  is `Cert.GraphConv.network` with the two tiled products; and a tiled product IS the host's matrix product, entry by
  entry (both are the sum over k of left(i, k) * right(k, j)), so the result is `Cert.GraphConv.gcn` of the arguments.
-/
import proofs.«132066_j36146444763195_1_alg».proof.Proof.KernelHost
import proofs.«132066_j36146444763195_1_alg».proof.Proof.Product0
import proofs.«132066_j36146444763195_1_alg».proof.Proof.Product1
import Idealize.ShloMosaic.PureOps.Ideal

set_option maxRecDepth 16384

noncomputable section

open Idealize.ShloMosaic Idealize.ShloMosaic.TcCoe Idealize.SL.Sem

namespace Cert.KernelIdeal.Result

open Cert.KernelIdeal Cert.KernelIdeal.Gen Cert.KernelIdeal.Host

variable (m : (ℓ : Loc nD τ sig) → Buf (Elt Ideal) ℓ) (ρ : Dev nD → PrngReg) (c : Dev nD)

/-! ## The two regions -/

/-- After the first region its result array holds the product of the launched node features with W1. -/
theorem first_product : W2 m ρ c (Proc.devRef .tc main_v27) = Product0.whole (m ((c : Thread nD τ).loc main_arg0)) (m ((c : Thread nD τ).loc main_arg2)) := by
  refine (W2_arr m ρ c 2).trans ((Product0.product_array (V1 m ρ) c).trans ?_)
  show Product0.whole (W1 m ρ c (Proc.devRef .tc main_arg0)) (W1 m ρ c (Proc.devRef .tc main_arg2)) = _
  rw [entry_arg0, entry_arg2]

theorem mid_v1 : W2 m ρ c (Proc.devRef .tc main_v1) = W1 m ρ c (Proc.devRef .tc main_v1) := W2_of_ne m ρ c main_v1 (by decide)
theorem mid_v3 : W2 m ρ c (Proc.devRef .tc main_v3) = W1 m ρ c (Proc.devRef .tc main_v3) := W2_of_ne m ρ c main_v3 (by decide)
theorem mid_v25 : W2 m ρ c (Proc.devRef .tc main_v25) = W1 m ρ c (Proc.devRef .tc main_v25) := W2_of_ne m ρ c main_v25 (by decide)
theorem mid_v26 : W2 m ρ c (Proc.devRef .tc main_v26) = W1 m ρ c (Proc.devRef .tc main_v26) := W2_of_ne m ρ c main_v26 (by decide)
theorem mid_arg3 : W2 m ρ c (Proc.devRef .tc main_arg3) = W1 m ρ c (Proc.devRef .tc main_arg3) := W2_of_ne m ρ c main_arg3 (by decide)
theorem mid_arg4 : W2 m ρ c (Proc.devRef .tc main_arg4) = W1 m ρ c (Proc.devRef .tc main_arg4) := W2_of_ne m ρ c main_arg4 (by decide)
theorem mid_arg5 : W2 m ρ c (Proc.devRef .tc main_arg5) = W1 m ρ c (Proc.devRef .tc main_arg5) := W2_of_ne m ρ c main_arg5 (by decide)

/-- After the second region its result array holds the product of the hidden features, as the region finds them, with W2. -/
theorem second_product : W5 m ρ c (Proc.devRef .tc main_v49) = Product1.whole (W4 m ρ c (Proc.devRef .tc main_v48)) (W4 m ρ c (Proc.devRef .tc main_arg4)) :=
  (W5_arr m ρ c 2).trans (Product1.product_array (V4 m ρ) c)

theorem kept5_v1 : W5 m ρ c (Proc.devRef .tc main_v1) = W4 m ρ c (Proc.devRef .tc main_v1) := W5_of_ne m ρ c main_v1 (by decide)
theorem kept5_v3 : W5 m ρ c (Proc.devRef .tc main_v3) = W4 m ρ c (Proc.devRef .tc main_v3) := W5_of_ne m ρ c main_v3 (by decide)
theorem kept5_v25 : W5 m ρ c (Proc.devRef .tc main_v25) = W4 m ρ c (Proc.devRef .tc main_v25) := W5_of_ne m ρ c main_v25 (by decide)
theorem kept5_v26 : W5 m ρ c (Proc.devRef .tc main_v26) = W4 m ρ c (Proc.devRef .tc main_v26) := W5_of_ne m ρ c main_v26 (by decide)
theorem kept5_arg5 : W5 m ρ c (Proc.devRef .tc main_arg5) = W4 m ρ c (Proc.devRef .tc main_arg5) := W5_of_ne m ρ c main_arg5 (by decide)

/-! ## Composed -/

/-- The result buffer ends holding the network of the launched arguments, with the two tiled products. -/
theorem result_tiled : W7 m ρ c (Proc.devRef .tc main_v70) = Cert.GraphConv.network (F := Ideal) (fun l r => Product0.whole l r) (fun l r => Product1.whole l r)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [output, second_product, Host.hidden, first_product,
    kept5_v1, kept5_v3, kept5_v25, kept5_v26, kept5_arg5, kept4_v1, kept4_v3, kept4_v25, kept4_v26, kept4_arg4, kept4_arg5,
    mid_v1, mid_v3, mid_v25, mid_v26, mid_arg3, mid_arg4, mid_arg5,
    entry_src, entry_dst, entry_norm, entry_self, entry_arg3, entry_arg4, entry_arg5]
  rfl

/-- The first tiled product is the host's matrix product of the same operands. -/
theorem product0_host : (fun (l : Cert.GraphConv.Arr Ideal Cert.ReferenceIdeal.S100000x512 .f32) (r : Cert.GraphConv.Arr Ideal Cert.ReferenceIdeal.S512x128 .f32) => (Product0.whole l r : Cert.GraphConv.Arr Ideal Cert.ReferenceIdeal.S100000x128 .f32))
    = fun l r => Host.dotGeneral (F := Ideal) (φ₁ := .f32) (φ₂ := .f32) Cert.ReferenceIdeal.dot_S100000x512_S512x128_S100000x128_1_0_0_1_n_n none l r := by
  funext l r
  exact (Cert.MatProd.dotGeneral_plain_eq (M := 100000) (K := 512) (N := 128) none _ l r).symm

/-- And the second. -/
theorem product1_host : (fun (l : Cert.GraphConv.Arr Ideal Cert.ReferenceIdeal.S100000x128 .f32) (r : Cert.GraphConv.Arr Ideal Cert.ReferenceIdeal.S128x64 .f32) => (Product1.whole l r : Cert.GraphConv.Arr Ideal Cert.ReferenceIdeal.S100000x64 .f32))
    = fun l r => Host.dotGeneral (F := Ideal) (φ₁ := .f32) (φ₂ := .f32) Cert.ReferenceIdeal.dot_S100000x128_S128x64_S100000x64_1_0_0_1_n_n none l r := by
  funext l r
  exact (Cert.MatProd.dotGeneral_plain_eq (M := 100000) (K := 128) (N := 64) none _ l r).symm

/-- So the network with the tiled products is `gcn`. -/
theorem network_tiled (x : Cert.GraphConv.Arr Ideal Cert.ReferenceIdeal.S100000x512 .f32) (e : Cert.GraphConv.Arr Ideal Cert.ReferenceIdeal.S2x1600000 .i32)
    (w1 : Cert.GraphConv.Arr Ideal Cert.ReferenceIdeal.S512x128 .f32) (b1 : Cert.GraphConv.Arr Ideal Cert.ReferenceIdeal.S128 .f32) (w2 : Cert.GraphConv.Arr Ideal Cert.ReferenceIdeal.S128x64 .f32) (b2 : Cert.GraphConv.Arr Ideal Cert.ReferenceIdeal.S64 .f32) :
    Cert.GraphConv.network (F := Ideal) (fun l r => Product0.whole l r) (fun l r => Product1.whole l r) x e w1 b1 w2 b2 = Cert.GraphConv.gcn x e w1 b1 w2 b2 :=
  (congrArg (fun p => Cert.GraphConv.network (F := Ideal) p (fun l r => Product1.whole l r) x e w1 b1 w2 b2) product0_host).trans
    (congrArg (fun p => Cert.GraphConv.network (F := Ideal)
      (fun l r => Host.dotGeneral (F := Ideal) (φ₁ := .f32) (φ₂ := .f32) Cert.ReferenceIdeal.dot_S100000x512_S512x128_S100000x128_1_0_0_1_n_n none l r) p x e w1 b1 w2 b2) product1_host)

/-- The result buffer ends holding `gcn` of the launched arguments. -/
theorem result_eq : W7 m ρ c (Proc.devRef .tc main_v70) = Cert.GraphConv.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (result_tiled m ρ c).trans (network_tiled _ _ _ _ _ _)

end Cert.KernelIdeal.Result

end
-- ==== Proof.RefValue.lean ====
/-
  What the idealized reference program's result buffer holds at the end: `Cert.GraphConv.gcn` of the launched arguments.

  The reference is one straight line of 130 host operations. Folding their results from the launch contents gives the
  result as one composed term of the arguments: two matrix products, and around them exactly the operations that
  `Cert.GraphConv` names (the reference computes the edge weights and self-loop weights once per layer, from the same
  edge list by the same operations, so both copies are the one `edgeNorm` / `selfWeight`). The two called functions
  (the clamp and the log-softmax) carry their values across type equations; those are removed by the lemmas on typed
  references at the four buffers where a called function meets @main's own operations, and only then are the two terms
  compared.
-/
import proofs.«132066_j36146444763195_1_alg».proof.Proof.RefRun
import proofs.«132066_j36146444763195_1_alg».proof.Proof.Chain
import proofs.«132066_j36146444763195_1_alg».proof.Proof.LibTypedRef

set_option maxRecDepth 16384

noncomputable section

open Cert.ReferenceIdeal Cert.ReferenceIdeal.Gen Idealize.ShloMosaic Idealize.ShloMosaic.TcCoe Idealize.SL.Sem Idealize.ShloMosaic.StableHlo
open Cert.ReferenceIdeal.ValueP

namespace Cert.ReferenceIdeal.Result

open Cert.GraphConv Cert.TypedRef

variable {F : FTy → Type} [FloatOps F]

set_option maxHeartbeats 52000000 in
/-- The fold of the 130 operations, read at the result's buffer, is the network of the launched arguments. -/
theorem result_read (m : (ℓ : Loc nD τ sig) → Buf (Elt F) ℓ) (c : Dev nD) :
    after (ops (F := F)) (launchContents m c) (Proc.devRef .tc main_v93)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  simp only [ofBuf_toBuf]
  rw [ofBuf_of main_v47, toBuf_of main_v48, ofBuf_of main_v92, toBuf_of main_v93]
  rfl

end Cert.ReferenceIdeal.Result

end
-- ==== Proof.RefArgs.lean ====
/-
  No operation of the idealized reference program writes an argument: the fold of its 130 operations, read at an
  argument's buffer, is the launch contents.
-/
import proofs.«132066_j36146444763195_1_alg».proof.Proof.RefRun

set_option maxRecDepth 16384
set_option Elab.async false

noncomputable section

open Cert.ReferenceIdeal Cert.ReferenceIdeal.Gen Idealize.ShloMosaic Idealize.ShloMosaic.TcCoe Idealize.SL.Sem Idealize.ShloMosaic.StableHlo
open Cert.ReferenceIdeal.ValueP

namespace Cert.ReferenceIdeal.Result

variable {F : FTy → Type} [FloatOps F]

set_option maxHeartbeats 52000000 in
theorem arg0_read (m : (ℓ : Loc nD τ sig) → Buf (Elt F) ℓ) (c : Dev nD) :
    after (ops (F := F)) (launchContents m c) (Proc.devRef .tc main_arg0) = (m ((c.tc : Thread nD τ).loc main_arg0)) := by
  after_results_simp <;> rfl

set_option maxHeartbeats 52000000 in
theorem arg1_read (m : (ℓ : Loc nD τ sig) → Buf (Elt F) ℓ) (c : Dev nD) :
    after (ops (F := F)) (launchContents m c) (Proc.devRef .tc main_arg1) = (m ((c.tc : Thread nD τ).loc main_arg1)) := by
  after_results_simp <;> rfl

set_option maxHeartbeats 52000000 in
theorem arg2_read (m : (ℓ : Loc nD τ sig) → Buf (Elt F) ℓ) (c : Dev nD) :
    after (ops (F := F)) (launchContents m c) (Proc.devRef .tc main_arg2) = (m ((c.tc : Thread nD τ).loc main_arg2)) := by
  after_results_simp <;> rfl

set_option maxHeartbeats 52000000 in
theorem arg3_read (m : (ℓ : Loc nD τ sig) → Buf (Elt F) ℓ) (c : Dev nD) :
    after (ops (F := F)) (launchContents m c) (Proc.devRef .tc main_arg3) = (m ((c.tc : Thread nD τ).loc main_arg3)) := by
  after_results_simp <;> rfl

set_option maxHeartbeats 52000000 in
theorem arg4_read (m : (ℓ : Loc nD τ sig) → Buf (Elt F) ℓ) (c : Dev nD) :
    after (ops (F := F)) (launchContents m c) (Proc.devRef .tc main_arg4) = (m ((c.tc : Thread nD τ).loc main_arg4)) := by
  after_results_simp <;> rfl

set_option maxHeartbeats 52000000 in
theorem arg5_read (m : (ℓ : Loc nD τ sig) → Buf (Elt F) ℓ) (c : Dev nD) :
    after (ops (F := F)) (launchContents m c) (Proc.devRef .tc main_arg5) = (m ((c.tc : Thread nD τ).loc main_arg5)) := by
  after_results_simp <;> rfl

end Cert.ReferenceIdeal.Result

end
-- ==== Proof.lean ====
/-
  A two-layer graph convolution: a kernel program against its reference, equal over the extended reals.

  Both programs compute, from node features x [100000, 512], an edge list [2, 1600000] and two weight-and-bias pairs,
      log_softmax (conv₂ (relu (conv₁ (x · W1)) · W2))
  where a convolution gathers each edge's source row, scales it by deg(src)^(-1/2) · deg(dst)^(-1/2), sums it into the
  destination's row, adds the node's own row scaled by the square of deg^(-1/2), and adds its layer's bias row (deg is
  one plus the number of edges ending at the node). They differ in two ways only. The kernel program
  computes each product x · W in a region that walks the 100000 rows in 20 blocks of 5000, each block's product taken
  with operands narrowed to a shorter float format; over the extended reals narrowing is the identity and a block of rows
  of a product is that block of rows of the left operand times the right operand, so each region leaves the whole
  product (`Product0`, `Product1`). And the reference computes the degree-derived weights once per layer where the kernel
  program computes them once; they are the same function of the edge list. Every other operation is the same on both
  sides and is carried as one function (`Cert.GraphConv`), never opened: no law of arithmetic on the extended reals is
  used beyond reading a matrix product as a sum of products, and the finiteness of the inputs is never needed.

  The kernel program's run with its result named is `KernelIdeal.ValueRun.run_result`, and what the result holds
  `KernelIdeal.Result.result_eq`; the reference's run is read in `ReferenceIdeal.Result`. Both end at
  `Cert.GraphConv.gcn` of the arguments; the frames are the generated ones, and the reference's frame is its run with
  the result dropped. The idealization rewrote nothing, so nothing is owed for it.
-/
import proofs.«132066_j36146444763195_1_alg».proof.Defs
import proofs.«132066_j36146444763195_1_alg».proof.Proof.Gen.Kernel
import proofs.«132066_j36146444763195_1_alg».proof.Proof.Gen.Kernel.Frame
import proofs.«132066_j36146444763195_1_alg».proof.Proof.Gen.KernelIdeal
import proofs.«132066_j36146444763195_1_alg».proof.Proof.Gen.KernelIdeal.Frame
import proofs.«132066_j36146444763195_1_alg».proof.Proof.Gen.ReferenceIdeal
import proofs.«132066_j36146444763195_1_alg».proof.Proof.Gen.Pre_finite_inputs
import proofs.«132066_j36146444763195_1_alg».proof.Proof.KernelRun
import proofs.«132066_j36146444763195_1_alg».proof.Proof.KernelValue
import proofs.«132066_j36146444763195_1_alg».proof.Proof.RefValue
import proofs.«132066_j36146444763195_1_alg».proof.Proof.RefArgs
import Idealize.ShloMosaic.PureOps.Ideal
import Idealize.ShloMosaic.Adequacy
import Idealize.ShloMosaic.Init

noncomputable section

open Idealize.ShloMosaic Idealize.ShloMosaic.TcCoe Idealize.SL.Sem

namespace Cert.ReferenceIdeal.Result

open Cert.ReferenceIdeal Cert.ReferenceIdeal.ValueP

variable {F : FTy → Type} [FloatOps F]

/-- The reference's run: every weakly fair execution terminates with the result at `gcn` of the launched arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = Cert.GraphConv.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c => ⟨(h c main_v93).trans (result_read m c),
      (h c main_arg0).trans (arg0_read m c),
      (h c main_arg1).trans (arg1_read m c),
      (h c main_arg2).trans (arg2_read m c),
      (h c main_arg3).trans (arg3_read m c),
      (h c main_arg4).trans (arg4_read m c),
      (h c main_arg5).trans (arg5_read m c)⟩)
    (run_after m ρ)

end Cert.ReferenceIdeal.Result

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Result.run (F := Ideal) m ρ)

/-- From memories that agree on the arguments both programs end with the result at the same `gcn` of them. -/
theorem algebraic : Cert.algebraic_KernelIdeal_ReferenceIdeal := by
  intro m ρ m' ρ' _ hagree
  refine ⟨fun c => Cert.GraphConv.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.ValueRun.run_result m ρ)
  · refine (θ_run Cert.ReferenceIdeal.defs _ _).mono (fun _ h c => ⟨(h c).1.trans ?_, (h c).2⟩)
      (Cert.ReferenceIdeal.Result.run (F := Ideal) m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
